-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 1) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S256x8192 : Shape := ⟨2, ![256, 8192]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S4096x8192, .i32⟩
  | .hbm, ⟨3, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .i32⟩
  | .local _ .vmem, ⟨3, _⟩ => ⟨S256x8192, .i32⟩
  | .local _ .vmem, ⟨4, _⟩ => ⟨S256x8192, .f32⟩
  | .local _ .vmem, ⟨5, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .i32 = 32 ∨ (Rect.block (s := S4096x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .f32 = 32 ∨ (Rect.block (s := S4096x8192) S256x8192.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S_, .f32⟩
  | .hbm, ⟨3, _⟩ => ⟨S4096x8192, .f32⟩
  | .hbm, ⟨4, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.MaskedFill.lean ====
/-
  The masked fill of an array: the entries a one-bit mask marks are replaced by one constant, the
  binary32 word of 3.0; every other entry is kept. Nothing is computed with the float values — an
  entry is either the constant or the input's entry — so the function is stated over any float
  values `F`, and it reads no finiteness of its input.

  One program tests the mask bit itself; the other first widens each bit to a 32-bit word (0 or 1)
  and tests that word against zero. A bit widened to 32 bits is nonzero exactly when the bit is
  set (`ne_zero_widen`), so both select the same entries (`fill_widened`).
-/
import Idealize.ShloMosaic.PureOps.Vector

namespace Cert.MaskedFill

open Idealize.ShloMosaic

variable {F : FTy → Type} [FloatOps F]

/-- The fill value's binary32 word: 3.0. -/
abbrev fillWord : BitVec 32 := 0x40400000#32

/-- Entry `i` of the masked fill: the fill value where the mask bit `b i` is set, `x i` elsewhere. -/
def maskedFill {s : Shape} (x : s.Idx → F .f32) (b : s.Idx → BitVec 1) : s.Idx → F .f32 :=
  fun i => Scalar.select (b i) (FloatOps.ofBits .f32 fillWord) (x i)

/-- The same rule over a mask held as 32-bit words: the fill value where the word is not zero. -/
def wordFill {s : Shape} (x : s.Idx → F .f32) (w : s.Idx → BitVec 32) : s.Idx → F .f32 :=
  fun i => Scalar.select (IntOp.cmpi .ne (w i) 0#32) (FloatOps.ofBits .f32 fillWord) (x i)

/-- A bit widened to a 32-bit word, tested against zero, gives the bit back: the word is 0 or 1. -/
theorem ne_zero_widen (b : BitVec 1) : IntOp.cmpi .ne (b.setWidth 32) 0#32 = b := by
  revert b; decide

/-- The fill over the widened mask is the fill over the mask. -/
theorem fill_widened {s : Shape} (x : s.Idx → F .f32) (b : s.Idx → BitVec 1) :
    wordFill x (fun i => (b i).setWidth 32) = maskedFill x b := by
  funext i
  show Scalar.select (IntOp.cmpi .ne ((b i).setWidth 32) 0#32) _ _ = Scalar.select (b i) _ _
  rw [ne_zero_widen]

end Cert.MaskedFill
-- ==== Proof.FillBlock.lean ====
/-
  One grid point of the kernel. The grid has 16 points; point `t` works on rows 256·t … 256·t + 255
  of all three arrays, the full width of 8192 columns: the three index maps are the same map
  t ↦ (t, 0), and each block is 256 × 8192. The body loads its block of the input and its block of
  the mask — held as 32-bit words, one per bit — and stores, through the whole-block rectangle, the
  input with the fill value wherever the mask word is not zero.

  So what point `t` writes back is block `t` of ONE function of the two whole arrays, `filled`: the
  word fill of the input array by the mask-word array, index by index. An entry of the output
  block at local index `j` sits at row 256·t + j₀, column j₁ of the array, and that is also where
  the two input blocks' entries at `j` come from, because the three index maps agree.
-/
import proofs.«129305_j53154515255825_2_alg».proof.Proof.Gen.KernelIdeal.Value
import proofs.«129305_j53154515255825_2_alg».proof.Proof.MaskedFill
import Idealize.ShloMosaic.Lib.Pipeline.Value

noncomputable section

namespace Cert.KernelIdeal.Fill

open Cert.KernelIdeal Cert.KernelIdeal.Gen Idealize.ShloMosaic Idealize.ShloMosaic.TcCoe Idealize.SL.Sem
open Idealize.ShloMosaic.Pipeline (Dat)
open Cert.MaskedFill

variable {F : FTy → Type} [FloatOps F]
variable (m : (ℓ : Loc nD τ sig) → Buf (Elt F) ℓ) (ρ : Dev nD → PrngReg)

/-- The body's rectangle starts at the block's origin. -/
theorem origin : (![0, 0] : Fin 2 → Nat) = fun _ => 0 := funext fun a => by fin_cases a <;> rfl

/-- The output array as one function of the input array and the mask-word array: the word fill. -/
abbrev filled (a0 : S4096x8192.Idx → Elt F .f32) (a1 : S4096x8192.Idx → Elt F .i32) : S4096x8192.Idx → Elt F .f32 :=
  wordFill (F := F) (s := S4096x8192) a0 a1

/-- The value the body stores is the word fill of its two loaded blocks. -/
theorem payload_eq (x1 : Vec F S256x8192 .i32) (x0 : Vec F S256x8192 .f32) :
    k0_pay1 x1 x0 = wordFill (F := F) (s := S256x8192) x0 x1 := rfl

/-- The three index maps agree at every grid point, and the output's block row stays below 16,
    its block column at 0 (decided over the 16 points). -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15 ∧ win0_2.index t (1 : Fin 2) ≤ 0 :=
  (by decide +kernel : ∀ t : Fin grid0.N, _)

/-- What point `t` writes back is block `t` of `filled` of the input array and the mask-word array
    as the kernel finds them. -/
theorem flushed_eq (c : Dev nD) (t : Fin cfg0.N) :
    (dats m 0 c).flushed 2 t
      = ((cfg0.win 2).blk t).view.read (Elt F) (filled (V m c main_arg0) (V m c main_v0)) := by
  rw [Cert.KernelIdeal.Value.flushed2]
  unfold out0_2
  rw [View.canon_unit_zero origin]
  simp only [View.ld_unit_zero (S := S256x8192) origin]
  rw [payload_eq]
  obtain ⟨e0, e1, e2, e3, -, -⟩ := index_facts t
  funext j
  show Scalar.select (IntOp.cmpi .ne (V m c main_v0 (((cfg0.win 1).blk t).view.emb j)) 0#32)
        (FloatOps.ofBits .f32 fillWord) (V m c main_arg0 (((cfg0.win 0).blk t).view.emb j))
      = Scalar.select (IntOp.cmpi .ne (V m c main_v0 (((cfg0.win 2).blk t).view.emb j)) 0#32)
        (FloatOps.ofBits .f32 fillWord) (V m c main_arg0 (((cfg0.win 2).blk t).view.emb j))
  have h0 : ((cfg0.win 0).blk t).view.emb j = ((cfg0.win 2).blk t).view.emb j := by
    funext a; apply Fin.ext
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 8192 + 1 * (j 1).val = win0_2.index t (1 : Fin 2) * 8192 + 1 * (j 1).val
      omega
  have h1 : ((cfg0.win 1).blk t).view.emb j = ((cfg0.win 2).blk t).view.emb j := by
    funext a; apply Fin.ext
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 8192 + 1 * (j 1).val = win0_2.index t (1 : Fin 2) * 8192 + 1 * (j 1).val
      omega
  rw [h0, h1]

end Cert.KernelIdeal.Fill

end
-- ==== Proof.FillArray.lean ====
/-
  From the 16 blocks to the whole output array, and from the mask words back to the mask.

  The output's blocks tile the array: block `t` is rows 256·t … 256·t + 255, all 8192 columns, so
  the entry at row `r`, column `k` lies in the block of point `r / 256`, and every block is written
  back. Each block written back is a block of `filled` of the two arrays the kernel reads, so the
  output array after the run IS `filled` of them.

  The input array is the program's first argument, untouched before the kernel starts. The
  mask-word array is written before the kernel starts by the one host operation: every bit of the
  second argument widened to a 32-bit word. The word fill over widened bits is the masked fill
  over the bits, which gives the output array as the masked fill of the two arguments.
-/
import proofs.«129305_j53154515255825_2_alg».proof.Proof.FillBlock
import Idealize.ShloMosaic.Lib.StableHlo.Run

noncomputable section

namespace Cert.KernelIdeal.Fill

open Cert.KernelIdeal Cert.KernelIdeal.Gen Idealize.ShloMosaic Idealize.ShloMosaic.TcCoe Idealize.SL.Sem
open Idealize.ShloMosaic.StableHlo
open Idealize.ShloMosaic.Pipeline (Dat)
open Cert.MaskedFill

variable {F : FTy → Type} [FloatOps F]
variable (m : (ℓ : Loc nD τ sig) → Buf (Elt F) ℓ) (ρ : Dev nD → PrngReg)

/-- An index of the array is in point `t`'s block iff each coordinate is in the block's range on
    its axis. -/
theorem mem_block (t : Fin cfg0.N) (i : S4096x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v1).slice (win0_2.rect t)).set ↔ _
  rw [View.set_slice_whole, Rect.mem_set_unit]
  exact Iff.rfl

/-- Every block row below 16, at block column 0, is some point's (decided over the grid). -/
theorem index_onto : ∀ (q0 : Fin 16) (q1 : Fin 1), ∃ t : Fin cfg0.N, win0_2.index t = ![q0.val, q1.val] :=
  (by decide +kernel : ∀ (q0 : Fin 16) (q1 : Fin 1), ∃ t : Fin grid0.N, win0_2.index t = ![q0.val, q1.val])

/-- The blocks cover the array: row `r` is in the block of the point whose block row is `r / 256`. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := index_onto ⟨(i 0).val / 256, by omega⟩ ⟨(i 1).val / 8192, by omega⟩
  have q0 : win0_2.index t (0 : Fin 2) = (i 0).val / 256 := congrFun ht 0
  have q1 : win0_2.index t (1 : Fin 2) = (i 1).val / 8192 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 8192 ≤ (i 1).val ∧ (i 1).val < win0_2.index t (1 : Fin 2) * 8192 + 8192
    omega

/-- The output array after the run is `filled` of the input array and the mask-word array. -/
theorem final (c : Dev nD) :
    (dats m 0 c).arrAt 2 cfg0.N = filled (V m c main_arg0) (V m c main_v0) :=
  (dats m 0 c).arrAt_eq_of_cover 2 _ (fun t _ => flushed_eq m c t) covered

/-- The mask-word array the kernel finds: each bit of the second argument widened to 32 bits. -/
theorem mask_words (c : Dev nD) :
    (V m c main_v0 : S4096x8192.Idx → BitVec 32)
      = fun i => (m ((c : Thread nD τ).loc main_arg1) i).setWidth 32 := by
  dsimp only [Gen.V, Gen.hostOps0]; after_results; rfl

/-- The output array after the run is the masked fill of the two arguments. -/
theorem result_eq (c : Dev nD) :
    (dats m 0 c).arrAt 2 cfg0.N
      = maskedFill (F := F) (s := S4096x8192) (m ((c : Thread nD τ).loc main_arg0)) (m ((c : Thread nD τ).loc main_arg1)) := by
  rw [final, V_main_arg0, mask_words]
  exact fill_widened _ _

/-- The kernel's run: it terminates with the result array at the masked fill of the arguments,
    the arguments unchanged. -/
theorem run : θ_run defs (onTc (τ := τ) (main (F := F))) ⟨m, fun _ => 0, ρ⟩ fun r => ∀ c : Dev nD,
      r.2.mem ((c : Thread nD τ).loc main_v1)
        = maskedFill (F := F) (s := S4096x8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Fill

end
-- ==== Proof.RefFill.lean ====
/-
  The reference. Its program is one constant, 3.0, spread over the array's shape, and one select
  of that array against the input by the mask bits. Read at an index `i`: the constant array's
  entry is the scalar 3.0 whatever `i` is, so the result's entry is the fill value where the mask
  bit at `i` is set and the input's entry elsewhere — the masked fill of the two arguments.
-/
import proofs.«129305_j53154515255825_2_alg».proof.Proof.Gen.ReferenceIdeal.Read
import proofs.«129305_j53154515255825_2_alg».proof.Proof.MaskedFill

noncomputable section

namespace Cert.ReferenceIdeal.Fill

open Cert.ReferenceIdeal Cert.ReferenceIdeal.Gen Idealize.ShloMosaic Idealize.ShloMosaic.TcCoe Idealize.SL.Sem
open Cert.MaskedFill

variable {F : FTy → Type} [FloatOps F]

/-- The reference's result, as a function of its two arguments, is the masked fill. -/
theorem result_eq (x0 : (⟨S4096x8192, .f32⟩ : BufTy).Contents (Elt F)) (x1 : (⟨S4096x8192, .i1⟩ : BufTy).Contents (Elt F)) :
    Read.val_main_v0 (F := F) x0 x1 = maskedFill (F := F) (s := S4096x8192) x0 x1 := by
  funext i
  rw [Read.val_main_v0_apply, Read.val_main_call0_v0_apply, Read.val_main_cst_apply]
  rfl

end Cert.ReferenceIdeal.Fill

end
-- ==== Proof.lean ====
/-
  Word dropout as a masked fill, f32[4096, 8192] with a one-bit mask of the same shape:

      out[r, k] = 3.0 if mask[r, k] else x[r, k].

  The kernel first widens the mask to 32-bit words on the host (a set bit becomes the word 1, a
  clear bit the word 0), then runs 16 grid points; point `t` takes rows 256·t … 256·t + 255 of the
  input and of the mask words, full width, and writes to the same rows of the output the input
  with 3.0 wherever the mask word is not zero. The reference spreads the constant 3.0 over the
  shape and selects by the mask bits themselves.

  Both are the SAME function of the two arguments, `MaskedFill.maskedFill`, entry by entry: a
  widened bit is nonzero exactly when the bit is set (MaskedFill.lean); a point's written block is
  a block of the word fill of the whole arrays (FillBlock.lean); the 16 blocks tile the array, so
  the output array is the word fill, and over widened bits that is the masked fill
  (FillArray.lean); the reference's select, read at an index, is the masked fill (RefFill.lean).
  No arithmetic is done on the float entries and the constant is the same binary32 word on both
  sides, so no law of the extended reals is used and the inputs' finiteness is never opened: the
  equality holds over any float values, and is used here at the exact ones.

  The three runs terminate with the arguments unchanged: the two kernels' by their generated
  frames, the reference's by its generated run. The idealized kernel is the kernel's own text
  read at exact values — nothing was rewritten — so that claim is `True`.
-/
import proofs.«129305_j53154515255825_2_alg».proof.Defs
import proofs.«129305_j53154515255825_2_alg».proof.Proof.Gen.Kernel
import proofs.«129305_j53154515255825_2_alg».proof.Proof.Gen.Kernel.Skeleton
import proofs.«129305_j53154515255825_2_alg».proof.Proof.Gen.Kernel.Launch
import proofs.«129305_j53154515255825_2_alg».proof.Proof.Gen.Kernel.Points
import proofs.«129305_j53154515255825_2_alg».proof.Proof.Gen.Kernel.Frame
import proofs.«129305_j53154515255825_2_alg».proof.Proof.Gen.KernelIdeal
import proofs.«129305_j53154515255825_2_alg».proof.Proof.Gen.KernelIdeal.Skeleton
import proofs.«129305_j53154515255825_2_alg».proof.Proof.Gen.KernelIdeal.Launch
import proofs.«129305_j53154515255825_2_alg».proof.Proof.Gen.KernelIdeal.Points
import proofs.«129305_j53154515255825_2_alg».proof.Proof.Gen.KernelIdeal.Frame
import proofs.«129305_j53154515255825_2_alg».proof.Proof.Gen.ReferenceIdeal
import proofs.«129305_j53154515255825_2_alg».proof.Proof.Gen.Pre_finite_inputs
import proofs.«129305_j53154515255825_2_alg».proof.Proof.Gen.KernelIdeal.Value
import proofs.«129305_j53154515255825_2_alg».proof.Proof.Gen.ReferenceIdeal.Run
import proofs.«129305_j53154515255825_2_alg».proof.Proof.Gen.ReferenceIdeal.Read
import proofs.«129305_j53154515255825_2_alg».proof.Proof.FillArray
import proofs.«129305_j53154515255825_2_alg».proof.Proof.RefFill
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the exact reading. -/
theorem preserves : Cert.preserves_Kernel_KernelIdeal := trivial

/-- From arguments that agree, the kernel's result array and the reference's both end at the
    masked fill of the input by the mask. -/
theorem algebraic : Cert.algebraic_KernelIdeal_ReferenceIdeal := by
  intro m ρ m' ρ' _ hagree
  refine ⟨fun c => Cert.MaskedFill.maskedFill (F := Ideal) (s := Cert.KernelIdeal.S4096x8192)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Fill.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Fill.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
